-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩
abbrev S10000x256 : Shape := ⟨2, ![10000, 256]⟩
abbrev S400x256 : Shape := ⟨2, ![400, 256]⟩

abbrev nBuf : Space → Nat
  | .hbm => 5
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S128x128, .f32⟩
  | .local _ .vmem, ⟨3, _⟩ => ⟨S400x10000, .f32⟩
  | .local _ .vmem, ⟨4, _⟩ => ⟨S400x10000, .f32⟩
  | .local _ .vmem, ⟨5, _⟩ => ⟨S400x128, .f32⟩
  | .local _ .vmem, ⟨6, _⟩ => ⟨S400x128, .f32⟩
  | .local _ .vmem, ⟨7, _⟩ => ⟨S10000x256, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  concatenates_S10000x128_S10000x128_S10000x256_d1 : Shape.Concatenates [S10000x128, S10000x128] S10000x256 1
  bitsLt_bf16_f32 : FTy.bits .bf16 < FTy.bits .f32
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S400x10000_S400x10000_0_0 : ∀ a, (![0, 0] : Fin 2 → Nat) a + S400x10000.size a ≤ S400x10000.size a
  h_S400x10000 : 0 < S400x10000.numel
  slices_S400x256_o0_0_S400x128 : S400x256.Slices ![0, 0] S400x128
  slices_S400x256_o0_128_S400x128 : S400x256.Slices ![0, 128] S400x128
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x256_S400x256_1_0_0_1_n_n_wf : DotDims.WF S400x10000 S10000x256 S400x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.StepValues.lean ====
/-
  What one grid step leaves behind, as values.

  The body has two control cases. At the first grid step it computes the two projections x·W and x·Wg, lays them side
  by side as one [10000, 256] table, parks that table in the scratch buffer, and then uses it; at every later step it
  only uses the table found in the scratch buffer. "Uses" means: the step's [400, 10000] block of the adjacency
  matrix times the table, the left half of the product gated by the logistic function of the right half.

  Here the pieces each case stores are read back as the two pure functions of the loaded blocks:
    * the table  T(x, W, Wg)        (the first store's value), and
    * the gated product  P(A_blk, T) (the second store's value).
-/
import proofs.«123847_g21887153340605_cont_8to1_463_4_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.StepValues

open Cert.KernelIdeal Cert.KernelIdeal.Gen

variable {F : FTy → Type} [FloatOps F]

/-- The offsets of a whole-buffer access, however the zeros are spelt. -/
theorem zero_off : (![0, 0] : Fin 2 → Nat) = fun _ => 0 := funext fun a => by fin_cases a <;> rfl

/-- FIRST STEP, the scratch buffer: it ends holding the table of the two projections of the loaded blocks. -/
theorem scratch_first (c : Dev nD) (i : grid0.Coords) (a1 : Memref sig .tc .vmem S10000x128 .f32) (h1 : a1.IsWhole) (a2 : Memref sig .tc .vmem S128x128 .f32) (h2 : a2.IsWhole) (a3 : Memref sig .tc .vmem S128x128 .f32) (h3 : a3.IsWhole) (a4 : Memref sig .tc .vmem S400x10000 .f32) (h4 : a4.IsWhole) (a5 : Memref sig .tc .vmem S400x128 .f32) (h5 : a5.IsWhole) (a6 : Memref sig .tc .vmem S10000x256 .bf16) (h6 : a6.IsWhole) (hc : cond0_0 i)
    (x0 : Vec F S10000x128 .f32) (x1 : Vec F S128x128 .f32) (x2 : Vec F S128x128 .f32) (x3 : Vec F S400x10000 .f32) :
    sout0_A_0 c i a1 h1 a2 h2 a3 h3 a4 h4 a5 h5 a6 h6 hc x0 x1 x2 x3 = k0_pay1 x0 x1 x2 := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_unit_zero zero_off]
  simp only [View.readAt_eq_ld, h1.read_unread, h2.read_unread, h3.read_unread,
    View.ld_unit_zero (S := S10000x128) zero_off, View.ld_unit_zero (S := S128x128) zero_off]

/-- FIRST STEP, the output block: the gated product of the adjacency block with the table just stored (the body reads
    the scratch buffer back after storing it). -/
theorem out_first (c : Dev nD) (i : grid0.Coords) (a1 : Memref sig .tc .vmem S10000x128 .f32) (h1 : a1.IsWhole) (a2 : Memref sig .tc .vmem S128x128 .f32) (h2 : a2.IsWhole) (a3 : Memref sig .tc .vmem S128x128 .f32) (h3 : a3.IsWhole) (a4 : Memref sig .tc .vmem S400x10000 .f32) (h4 : a4.IsWhole) (a5 : Memref sig .tc .vmem S400x128 .f32) (h5 : a5.IsWhole) (a6 : Memref sig .tc .vmem S10000x256 .bf16) (h6 : a6.IsWhole) (hc : cond0_0 i)
    (x0 : Vec F S10000x128 .f32) (x1 : Vec F S128x128 .f32) (x2 : Vec F S128x128 .f32) (x3 : Vec F S400x10000 .f32) :
    out0_A_4 c i a1 h1 a2 h2 a3 h3 a4 h4 a5 h5 a6 h6 hc x0 x1 x2 x3 = k0_pay2 x3 (k0_pay1 x0 x1 x2) := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero (S := S400x128) zero_off, View.readCov_unit_zero (S := S10000x256) _ zero_off]
  simp only [View.readAt_eq_ld, h1.read_unread, h2.read_unread, h3.read_unread, h4.read_unread,
    View.ld_unit_zero (S := S10000x128) zero_off, View.ld_unit_zero (S := S128x128) zero_off,
    View.ld_unit_zero (S := S400x10000) zero_off]

/-- A LATER STEP, the output block: the gated product of the adjacency block with the table found in the scratch
    buffer. -/
theorem out_later (c : Dev nD) (i : grid0.Coords) (a1 : Memref sig .tc .vmem S10000x128 .f32) (h1 : a1.IsWhole) (a2 : Memref sig .tc .vmem S128x128 .f32) (h2 : a2.IsWhole) (a3 : Memref sig .tc .vmem S128x128 .f32) (h3 : a3.IsWhole) (a4 : Memref sig .tc .vmem S400x10000 .f32) (h4 : a4.IsWhole) (a5 : Memref sig .tc .vmem S400x128 .f32) (h5 : a5.IsWhole) (a6 : Memref sig .tc .vmem S10000x256 .bf16) (h6 : a6.IsWhole) (hc : ¬cond0_0 i)
    (x0 : Vec F S10000x128 .f32) (x1 : Vec F S128x128 .f32) (x2 : Vec F S128x128 .f32) (x3 : Vec F S400x10000 .f32)
    (xs : Vec F S10000x256 .bf16) :
    out0_B_4 c i a1 h1 a2 h2 a3 h3 a4 h4 a5 h5 a6 h6 hc x0 x1 x2 x3 xs = k0_pay2 x3 xs := by
  unfold out0_B_4
  rw [View.read_writes_eq_canon _ _ _ (cover0_B_4 c i a1 h1 a2 h2 a3 h3 a4 h4 a5 h5 a6 h6 hc x0 x1 x2 x3 xs)]
  unfold kernelRun0_B
  dsimp only
  sl_unfold_words
  rw [View.canon_unit_zero (S := S400x128) zero_off]
  simp only [View.readAt_eq_ld, h4.read_unread, h6.read_unread,
    View.ld_unit_zero (S := S400x10000) zero_off, View.ld_unit_zero (S := S10000x256) zero_off]

end Cert.KernelIdeal.StepValues

end
-- ==== Proof.Sweep.lean ====
/-
  The table survives the sweep.

  The three small operands (x, W, Wg) are staged whole: their index maps are constant, so the block a step sees IS the
  array. Hence the table stored at the first step is T(x, W, Wg) of the whole argument arrays; no later step stores into
  the scratch buffer, so by induction on the step every step finds that same table; and the output block a step leaves
  is the gated product of ITS block of the adjacency matrix with that table.
-/
import proofs.«123847_g21887153340605_cont_8to1_463_4_alg».proof.Proof.StepValues
import proofs.«123847_g21887153340605_cont_8to1_463_4_alg».proof.Proof.Gen.KernelIdeal.Value

set_option maxRecDepth 16384

noncomputable section

open Idealize.ShloMosaic Idealize.ShloMosaic.TcCoe Idealize.SL.Sem

namespace Cert.KernelIdeal.Sweep

open Cert.KernelIdeal Cert.KernelIdeal.Gen Cert.KernelIdeal.StepValues

variable {F : FTy → Type} [FloatOps F]
variable (m : (ℓ : Loc nD τ sig) → Buf (Elt F) ℓ)

/-- The index maps of the three whole-array operands are zero at every step (decided over the 25 steps). -/
theorem whole_idx : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The block of x a step sees is x. -/
theorem blk_x (c : Dev nD) (t : Fin cfg0.N) : (iblk m c 0 t : Vec F S10000x128 .f32) = V m c main_arg0 := by
  obtain ⟨e0, e1, -, -, -, -⟩ := whole_idx t
  funext y
  unfold iblk
  rw [View.read_apply]
  show V m c main_arg0 _ = V m c main_arg0 y
  congr 1
  funext a
  apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The block of W a step sees is W. -/
theorem blk_w (c : Dev nD) (t : Fin cfg0.N) : (iblk m c 1 t : Vec F S128x128 .f32) = V m c main_arg2 := by
  obtain ⟨-, -, e0, e1, -, -⟩ := whole_idx t
  funext y
  unfold iblk
  rw [View.read_apply]
  show V m c main_arg2 _ = V m c main_arg2 y
  congr 1
  funext a
  apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The block of Wg a step sees is Wg. -/
theorem blk_wg (c : Dev nD) (t : Fin cfg0.N) : (iblk m c 2 t : Vec F S128x128 .f32) = V m c main_arg3 := by
  obtain ⟨-, -, -, -, e0, e1⟩ := whole_idx t
  funext y
  unfold iblk
  rw [View.read_apply]
  show V m c main_arg3 _ = V m c main_arg3 y
  congr 1
  funext a
  apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The table of the two projections of the whole argument arrays. -/
def table (c : Dev nD) : Vec F S10000x256 .bf16 :=
  k0_pay1 (V m c main_arg0 : Vec F S10000x128 .f32) (V m c main_arg2 : Vec F S128x128 .f32) (V m c main_arg3 : Vec F S128x128 .f32)

/-- After EVERY step the scratch buffer holds the table: stored at step 0, never stored into again. -/
theorem scratch_eq (c : Dev nD) : ∀ (n : ℕ) (h : n < cfg0.N), (outsAt0 m c n h).2 = table m c
  | 0, h => by
    rw [outsAt0_A m c ⟨0, h⟩ rfl]
    dsimp only
    rw [scratch_first, blk_x, blk_w, blk_wg]
    rfl
  | n + 1, h => by
    have hN : cfg0.N = 25 := N_0
    have hB : ¬(⟨n + 1, h⟩ : Fin cfg0.N).val % 25 = 0 := by dsimp only; omega
    rw [outsAt0_B m c ⟨n + 1, h⟩ hB]
    dsimp only
    unfold sout0_B_0
    exact scratch_eq c n _

/-- What a step leaves in the output block: the gated product of its adjacency block with the table. -/
theorem out_eq (c : Dev nD) (t : Fin cfg0.N) :
    (outsAt0 m c t.val t.isLt).1 = k0_pay2 (iblk m c 3 t : Vec F S400x10000 .f32) (table m c) := by
  have hN : cfg0.N = 25 := N_0
  by_cases h0 : t.val % 25 = 0
  · rw [outsAt0_A m c t h0]
    dsimp only
    rw [out_first, blk_x, blk_w, blk_wg]
    rfl
  · rw [outsAt0_B m c t h0]
    dsimp only
    rw [out_later, scratch_eq]

end Cert.KernelIdeal.Sweep

end
-- ==== Proof.GatedSpec.lean ====
/-
  The gated graph convolution as ONE function of the four argument arrays, over the extended reals.

  With x : [10000, 128], A : [10000, 10000], W, Wg : [128, 128]:

      out[p, q] = (Σ_k A[p, k] · (Σ_j x[k, j] · W[j, q])) · σ(Σ_k A[p, k] · (Σ_j x[k, j] · Wg[j, q])),

  σ the logistic function 1 / (1 + e^(−z)) (with its limits 0 and 1 at −∞ and +∞). The table the kernel keeps is the two
  projections side by side: column q < 128 of row k is (x·W)[k, q], column 128 + q is (x·Wg)[k, q].
-/
import Idealize.ShloMosaic.PureOps.Ideal
import Idealize.ShloMosaic.Lib.ValueIdx

noncomputable section

namespace Cert.GatedSpec

open Idealize.ShloMosaic Idealize.ShloMosaic.ValueIdx

/-- Entry (k, q) of a projection x·W: the inner product of row k of x with column q of W. -/
def proj (x : (⟨2, ![10000, 128]⟩ : Shape).Idx → EReal) (w : (⟨2, ![128, 128]⟩ : Shape).Idx → EReal)
    (k : Fin 10000) (q : Fin 128) : EReal :=
  ∑ j : Fin 128, x (ix2 k j) * w (ix2 j q)

/-- Entry (p, q) of the aggregated projection A·(x·W). -/
def agg (a : (⟨2, ![10000, 10000]⟩ : Shape).Idx → EReal) (x : (⟨2, ![10000, 128]⟩ : Shape).Idx → EReal)
    (w : (⟨2, ![128, 128]⟩ : Shape).Idx → EReal) (p : Fin 10000) (q : Fin 128) : EReal :=
  ∑ k : Fin 10000, a (ix2 p k) * proj x w k q

/-- Entry (k, q) of the table [x·W | x·Wg]. -/
def tableAt (x : (⟨2, ![10000, 128]⟩ : Shape).Idx → EReal) (w wg : (⟨2, ![128, 128]⟩ : Shape).Idx → EReal)
    (k : Fin 10000) (q : Fin 256) : EReal :=
  if h : q.val < 128 then proj x w k ⟨q.val, h⟩ else proj x wg k ⟨q.val - 128, by have := q.isLt; omega⟩

/-- The result at (p, q): the aggregated projection, gated by the logistic function of the aggregated gate projection. -/
def gatedAt (x : (⟨2, ![10000, 128]⟩ : Shape).Idx → EReal) (a : (⟨2, ![10000, 10000]⟩ : Shape).Idx → EReal)
    (w wg : (⟨2, ![128, 128]⟩ : Shape).Idx → EReal) (p : Fin 10000) (q : Fin 128) : EReal :=
  agg a x w p q * Ideal.logistic (agg a x wg p q)

/-- The whole result array. -/
def gated (x : (⟨2, ![10000, 128]⟩ : Shape).Idx → EReal) (a : (⟨2, ![10000, 10000]⟩ : Shape).Idx → EReal)
    (w wg : (⟨2, ![128, 128]⟩ : Shape).Idx → EReal) : (⟨2, ![10000, 128]⟩ : Shape).Idx → EReal :=
  fun i => gatedAt x a w wg (i 0) (i 1)

theorem gated_apply (x : (⟨2, ![10000, 128]⟩ : Shape).Idx → EReal) (a : (⟨2, ![10000, 10000]⟩ : Shape).Idx → EReal)
    (w wg : (⟨2, ![128, 128]⟩ : Shape).Idx → EReal) (p : Fin 10000) (q : Fin 128) :
    gated x a w wg (ix2 p q) = gatedAt x a w wg p q := rfl

/-- The left half of the table is x·W. -/
theorem tableAt_left (x : (⟨2, ![10000, 128]⟩ : Shape).Idx → EReal) (w wg : (⟨2, ![128, 128]⟩ : Shape).Idx → EReal)
    (k : Fin 10000) (q : Fin 128) (q' : Fin 256) (hq : q'.val = q.val) : tableAt x w wg k q' = proj x w k q := by
  have h : q'.val < 128 := by have := q.isLt; omega
  unfold tableAt
  rw [dif_pos h]
  exact congrArg (proj x w k) (Fin.ext hq)

/-- The right half of the table is x·Wg. -/
theorem tableAt_right (x : (⟨2, ![10000, 128]⟩ : Shape).Idx → EReal) (w wg : (⟨2, ![128, 128]⟩ : Shape).Idx → EReal)
    (k : Fin 10000) (q : Fin 128) (q' : Fin 256) (hq : q'.val = 128 + q.val) : tableAt x w wg k q' = proj x wg k q := by
  have h : ¬q'.val < 128 := by omega
  unfold tableAt
  rw [dif_neg h]
  exact congrArg (proj x wg k) (Fin.ext (by show q'.val - 128 = q.val; omega))

/-- The f32 word of 1.0 is the extended real 1. -/
theorem one_f32 : Ideal.ofBits .f32 0x3F800000#32 = 1 := by
  simp [Ideal.ofBits, Ideal.ieee, -EReal.coe_mul]; norm_num

end Cert.GatedSpec

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.Entries.lean ====
/-
  The two stored values, entry by entry, over the extended reals.

  * The table: entry (k, q) of the concatenation [x·W | x·Wg] is (x·W)[k, q] for q < 128 and (x·Wg)[k, q − 128] otherwise
    (the change of format to bf16 is the identity on exact values).
  * The gated product of an adjacency block B : [400, 10000] with a table T : [10000, 256]: entry (r, q) is
    (Σ_k B[r, k]·T[k, q]) · σ(Σ_k B[r, k]·T[k, 128 + q]) — columns q and 128 + q of one product B·T.
-/
import proofs.«123847_g21887153340605_cont_8to1_463_4_alg».proof.Proof.Gen.KernelIdeal.Skeleton
import proofs.«123847_g21887153340605_cont_8to1_463_4_alg».proof.Proof.GatedSpec
import proofs.«123847_g21887153340605_cont_8to1_463_4_alg».proof.Proof.LibMatmulNN
import Idealize.ShloMosaic.Lib.Pipeline.Value
import Idealize.ShloMosaic.Lib.ValueLayout
import Idealize.ShloMosaic.PureOps.Ideal.Laws

noncomputable section

open Idealize.ShloMosaic Idealize.ShloMosaic.ValueIdx

namespace Cert.KernelIdeal.Entries

open Cert.KernelIdeal Cert.KernelIdeal.Gen Cert.GatedSpec

/-- The table's entry (k, q). -/
theorem table_apply (x : Vec Ideal S10000x128 .f32) (w wg : Vec Ideal S128x128 .f32) (k : Fin 10000) (q : Fin 256) :
    k0_pay1 (F := Ideal) x w wg (ix2 k q) = tableAt x w wg k q := by
  unfold k0_pay1
  rw [shapeCast_self]
  refine (truncf_apply (φ := .f32) (ψ := .bf16) _ bitsLt_bf16_f32 (ix2 k q)).trans ?_
  by_cases h : q.val < 128
  · refine (concatenate_pair_apply_left (t := S10000x256) (s₁ := S10000x128) (s₂ := S10000x128) (1 : Fin 2) _ _ concatenates_S10000x128_S10000x128_S10000x256_d1 (ix2 k q) rfl
      (ix2 k (⟨q.val, h⟩ : Fin 128)) (fun b => by
        match b with
        | ⟨0, _⟩ => rfl
        | ⟨1, _⟩ => rfl)).trans ?_
    refine (Cert.MatmulNN.matmul_zero_apply dot_S10000x128_S128x128_S10000x128_1_0_0_1_n_n rfl none x w k
      (⟨q.val, h⟩ : Fin 128)).trans ?_
    unfold tableAt
    rw [dif_pos h]
    rfl
  · have h' : q.val - 128 < 128 := by have := q.isLt; omega
    refine (concatenate_pair_apply_right (t := S10000x256) (s₁ := S10000x128) (s₂ := S10000x128) (1 : Fin 2) _ _ concatenates_S10000x128_S10000x128_S10000x256_d1 (ix2 k q) rfl rfl
      (ix2 k (⟨q.val - 128, h'⟩ : Fin 128)) (fun b hb => by
        match b with
        | ⟨0, _⟩ => rfl
        | ⟨1, _⟩ => exact absurd rfl hb) (by show q.val - 128 + 128 = q.val; omega)).trans ?_
    refine (Cert.MatmulNN.matmul_zero_apply dot_S10000x128_S128x128_S10000x128_1_0_0_1_n_n rfl none x wg k
      (⟨q.val - 128, h'⟩ : Fin 128)).trans ?_
    unfold tableAt
    rw [dif_neg h]
    rfl

/-- The gated product of an adjacency block with a table, at entry (r, q). -/
theorem gate_apply (a : Vec Ideal S400x10000 .f32) (sg : Vec Ideal S10000x256 .bf16) (r : Fin 400) (q : Fin 128) :
    k0_pay2 (F := Ideal) a sg (ix2 r q)
      = (∑ k : Fin 10000, a (ix2 r k) * sg (ix2 k (⟨q.val, by have := q.isLt; omega⟩ : Fin 256)))
        * Ideal.logistic (∑ k : Fin 10000, a (ix2 r k) * sg (ix2 k (⟨128 + q.val, by have := q.isLt; omega⟩ : Fin 256))) := by
  unfold k0_pay2
  refine (mulf_apply (s := S400x128) (φ := .f32) _ _ (ix2 r q)).trans ?_
  refine congrArg₂ (· * ·) ?_ ?_
  · refine (slice2_axis1_apply 0 _ slices_S400x256_o0_0_S400x128 r q
      (⟨q.val, by have := q.isLt; omega⟩ : Fin 256) (by simp)).trans ?_
    exact Cert.MatmulNN.matmul_zero_apply dot_S400x10000_S10000x256_S400x256_1_0_0_1_n_n rfl none _ sg r _
  · show Ideal.logistic _ = Ideal.logistic _
    refine congrArg Ideal.logistic ?_
    refine (slice2_axis1_apply 128 _ slices_S400x256_o0_128_S400x128 r q
      (⟨128 + q.val, by have := q.isLt; omega⟩ : Fin 256) rfl).trans ?_
    exact Cert.MatmulNN.matmul_zero_apply dot_S400x10000_S10000x256_S400x256_1_0_0_1_n_n rfl none _ sg r _

end Cert.KernelIdeal.Entries

end
-- ==== Proof.KernelResult.lean ====
/-
  The kernel's result array is the gated graph convolution.

  Step t stages rows 400·t … 400·t + 399 of the adjacency matrix and writes rows 400·t … 400·t + 399 of the result. Its
  output block is the gated product of its adjacency block with the table [x·W | x·Wg]; at entry (r, q) that is
  (Σ_k A[400t + r, k]·(x·W)[k, q]) · σ(Σ_k A[400t + r, k]·(x·Wg)[k, q]), the specification at row 400t + r. The 25 blocks
  tile the 10000 rows (row p is in block p / 400), so the array ends holding the specification everywhere.
-/
import proofs.«123847_g21887153340605_cont_8to1_463_4_alg».proof.Proof.Sweep
import proofs.«123847_g21887153340605_cont_8to1_463_4_alg».proof.Proof.Entries

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.GatedSpec

variable (m : (ℓ : Loc nD τ sig) → Buf (Elt Ideal) ℓ) (ρ : Dev nD → PrngReg)

/-- The adjacency window and the output window both sit at block (t, 0) at step t (decided over the 25 steps). -/
theorem row_idx : ∀ t : Fin cfg0.N,
    win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The specification at the argument arrays as the kernel finds them. -/
def result (c : Dev nD) : S10000x128.Idx → EReal :=
  gated (V m c main_arg0) (V m c main_arg1) (V m c main_arg2) (V m c main_arg3)

/-- Row r of step t's adjacency block is row 400·t + r of the adjacency matrix. -/
theorem blk_adj (c : Dev nD) (t : Fin cfg0.N) (r : Fin 400) (k : Fin 10000) (p : Fin 10000)
    (hp : p.val = t.val * 400 + r.val) :
    (iblk m c 3 t : Vec Ideal S400x10000 .f32) (ix2 r k) = V m c main_arg1 (ix2 p k) := by
  obtain ⟨e0, e1, -, -⟩ := row_idx t
  unfold iblk
  rw [View.read_apply]
  show V m c main_arg1 _ = V m c main_arg1 (ix2 p k)
  congr 1
  funext a
  apply Fin.ext
  match a with
  | ⟨0, _⟩ => show win0_3.index t (0 : Fin 2) * 400 + 1 * r.val = p.val; omega
  | ⟨1, _⟩ => show win0_3.index t (1 : Fin 2) * 10000 + 1 * k.val = k.val; omega

/-- Entry (r, q) of what step t leaves in its output block is the specification at (400·t + r, q). -/
theorem entry_eq (c : Dev nD) (t : Fin cfg0.N) (j : S400x128.Idx) (i : S10000x128.Idx)
    (h0 : (i 0).val = t.val * 400 + (j 0).val) (h1 : (i 1).val = (j 1).val) :
    k0_pay2 (F := Ideal) (iblk m c 3 t : Vec Ideal S400x10000 .f32) (Sweep.table m c) j = result m c i := by
  obtain ⟨r, q, rfl⟩ : ∃ (r : Fin 400) (q : Fin 128), j = ix2 r q := ⟨j 0, j 1, eq_ix2 j⟩
  obtain ⟨p, q', rfl⟩ : ∃ (p : Fin 10000) (q' : Fin 128), i = ix2 p q' := ⟨i 0, i 1, eq_ix2 i⟩
  obtain rfl : q' = q := Fin.ext h1
  have hp : p.val = t.val * 400 + r.val := h0
  refine (Entries.gate_apply _ _ r q').trans ?_
  unfold result
  rw [gated_apply]
  unfold gatedAt agg
  refine congrArg₂ (· * ·) ?_ (congrArg Ideal.logistic ?_)
  · refine Finset.sum_congr rfl fun k _ => ?_
    refine congrArg₂ (· * ·) (blk_adj m c t r k p hp) ?_
    unfold Sweep.table
    exact (Entries.table_apply _ _ _ k _).trans (tableAt_left _ _ _ k q' _ rfl)
  · refine Finset.sum_congr rfl fun k _ => ?_
    refine congrArg₂ (· * ·) (blk_adj m c t r k p hp) ?_
    unfold Sweep.table
    exact (Entries.table_apply _ _ _ k _).trans (tableAt_right _ _ _ k q' _ rfl)

/-- WHAT STEP t WRITES BACK is block t of the specification. -/
theorem flushed_eq (c : Dev nD) (t : Fin cfg0.N) :
    (dats m 0 c).flushed 4 t = ((cfg0.win 4).blk t).view.read (Elt Ideal) (result m c) := by
  rw [Cert.KernelIdeal.Value.flushed4, Sweep.out_eq]
  obtain ⟨-, -, e2, e3⟩ := row_idx t
  funext y
  show k0_pay2 (F := Ideal) (iblk m c 3 t : Vec Ideal S400x10000 .f32) (Sweep.table m c) y
    = result m c (((cfg0.win 4).blk t).view.emb y)
  refine entry_eq m c t y _ ?_ ?_
  · show win0_4.index t (0 : Fin 2) * 400 + 1 * (y 0).val = t.val * 400 + (y 0).val; omega
  · show win0_4.index t (1 : Fin 2) * 128 + 1 * (y 1).val = (y 1).val; omega

/-- An index of the result array is in step t's block iff each coordinate is in the block's range on its axis. -/
theorem mem_blk (t : Fin cfg0.N) (i : S10000x128.Idx) :
    i ∈ ((cfg0.win 4).blk t).view.set ↔ ∀ a : Fin 2, win0_4.index t a * S400x128.size a ≤ (i a).val
      ∧ (i a).val < win0_4.index t a * S400x128.size a + S400x128.size a := by
  show i ∈ ((View.whole main_v0).slice (win0_4.rect t)).set ↔ _
  rw [View.set_slice_whole, Rect.mem_set_unit]
  exact Iff.rfl

/-- THE ARRAY after the run is the specification: row p lies in the block of step p / 400. -/
theorem final (c : Dev nD) : (dats m 0 c).arrAt 4 cfg0.N = result m c :=
  (dats m 0 c).arrAt_eq_of_cover 4 (result m c) (fun t _ => flushed_eq m c t) fun i => by
    have hi0 : (i 0).val < 10000 := (i 0).isLt
    have hi1 : (i 1).val < 128 := (i 1).isLt
    have hN : cfg0.N = 25 := N_0
    have ht : (i 0).val / 400 < cfg0.N := by rw [hN]; omega
    obtain ⟨-, -, e2, e3⟩ := row_idx ⟨(i 0).val / 400, ht⟩
    refine ⟨⟨(i 0).val / 400, ht⟩, flush0_4 _, ?_⟩
    rw [mem_blk]
    intro a
    match a with
    | ⟨0, _⟩ =>
      show win0_4.index ⟨(i 0).val / 400, ht⟩ (0 : Fin 2) * 400 ≤ (i 0).val
        ∧ (i 0).val < win0_4.index ⟨(i 0).val / 400, ht⟩ (0 : Fin 2) * 400 + 400
      rw [e2]
      show (i 0).val / 400 * 400 ≤ (i 0).val ∧ (i 0).val < (i 0).val / 400 * 400 + 400
      omega
    | ⟨1, _⟩ =>
      show win0_4.index ⟨(i 0).val / 400, ht⟩ (1 : Fin 2) * 128 ≤ (i 1).val
        ∧ (i 1).val < win0_4.index ⟨(i 0).val / 400, ht⟩ (1 : Fin 2) * 128 + 128
      rw [e3]
      omega

/-- The kernel's run, read: the result array at the specification of the argument arrays, the arguments unchanged. -/
theorem run : θ_run defs (onTc (τ := τ) (main (F := Ideal))) ⟨m, fun _ => 0, ρ⟩ fun r => ∀ c : Dev nD,
      r.2.mem ((c : Thread nD τ).loc main_v0)
        = gated (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Result

end
-- ==== Proof.ReferenceResult.lean ====
/-
  The reference computes the gated graph convolution.

  Its thirteen host operations, read at an entry (p, q): two projections x·W and x·Wg (inner products over 128 terms),
  two aggregations A·(x·W) and A·(x·Wg) (inner products over 10000 terms), and 1 / (1 + e^(−z)) of the second — which
  IS the logistic function of z on every extended real, by definition — times the first. The product of two extended
  reals commutes, which is the only law needed to meet the specification's order of the two factors.
-/
import proofs.«123847_g21887153340605_cont_8to1_463_4_alg».proof.Proof.Gen.ReferenceIdeal.Read
import proofs.«123847_g21887153340605_cont_8to1_463_4_alg».proof.Proof.GatedSpec

noncomputable section

open Idealize.ShloMosaic Idealize.ShloMosaic.ValueIdx

namespace Cert.ReferenceIdeal.RefValue

open Cert.ReferenceIdeal Cert.ReferenceIdeal.Read Cert.GatedSpec

/-- The operand indices of the four inner products, as coordinates. -/
theorem lidx0 (k : Fin 10000) (q : Fin 128) (j : Fin 128) : lidx_main_v0 (ix2 k q) j = ix2 k j :=
  funext fun a => Fin.ext (by match a with | ⟨0, _⟩ => rfl | ⟨1, _⟩ => rfl)
theorem ridx0 (k : Fin 10000) (q : Fin 128) (j : Fin 128) : ridx_main_v0 (ix2 k q) j = ix2 j q :=
  funext fun a => Fin.ext (by match a with | ⟨0, _⟩ => rfl | ⟨1, _⟩ => rfl)
theorem lidx1 (k : Fin 10000) (q : Fin 128) (j : Fin 128) : lidx_main_v1 (ix2 k q) j = ix2 k j :=
  funext fun a => Fin.ext (by match a with | ⟨0, _⟩ => rfl | ⟨1, _⟩ => rfl)
theorem ridx1 (k : Fin 10000) (q : Fin 128) (j : Fin 128) : ridx_main_v1 (ix2 k q) j = ix2 j q :=
  funext fun a => Fin.ext (by match a with | ⟨0, _⟩ => rfl | ⟨1, _⟩ => rfl)
theorem lidx2 (p : Fin 10000) (q : Fin 128) (k : Fin 10000) : lidx_main_v2 (ix2 p q) k = ix2 p k :=
  funext fun a => Fin.ext (by match a with | ⟨0, _⟩ => rfl | ⟨1, _⟩ => rfl)
theorem ridx2 (p : Fin 10000) (q : Fin 128) (k : Fin 10000) : ridx_main_v2 (ix2 p q) k = ix2 k q :=
  funext fun a => Fin.ext (by match a with | ⟨0, _⟩ => rfl | ⟨1, _⟩ => rfl)
theorem lidx3 (p : Fin 10000) (q : Fin 128) (k : Fin 10000) : lidx_main_v3 (ix2 p q) k = ix2 p k :=
  funext fun a => Fin.ext (by match a with | ⟨0, _⟩ => rfl | ⟨1, _⟩ => rfl)
theorem ridx3 (p : Fin 10000) (q : Fin 128) (k : Fin 10000) : ridx_main_v3 (ix2 p q) k = ix2 k q :=
  funext fun a => Fin.ext (by match a with | ⟨0, _⟩ => rfl | ⟨1, _⟩ => rfl)

/-- The reference's x·W at (k, q). -/
theorem proj_w (x0 : (⟨S10000x128, .f32⟩ : BufTy).Contents (Elt Ideal)) (x2 : (⟨S128x128, .f32⟩ : BufTy).Contents (Elt Ideal))
    (k : Fin 10000) (q : Fin 128) : val_main_v0 (F := Ideal) x0 x2 (ix2 k q) = proj x0 x2 k q := by
  rw [val_main_v0_apply]
  unfold proj
  refine Finset.sum_congr rfl fun j _ => ?_
  rw [lidx0, ridx0]

/-- The reference's x·Wg at (k, q). -/
theorem proj_wg (x0 : (⟨S10000x128, .f32⟩ : BufTy).Contents (Elt Ideal)) (x3 : (⟨S128x128, .f32⟩ : BufTy).Contents (Elt Ideal))
    (k : Fin 10000) (q : Fin 128) : val_main_v1 (F := Ideal) x0 x3 (ix2 k q) = proj x0 x3 k q := by
  rw [val_main_v1_apply]
  unfold proj
  refine Finset.sum_congr rfl fun j _ => ?_
  rw [lidx1, ridx1]

/-- The reference's A·(x·W) at (p, q). -/
theorem agg_w (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (p : Fin 10000) (q : Fin 128) :
    val_main_v2 (F := Ideal) x0 x1 x2 (ix2 p q) = agg x1 x0 x2 p q := by
  rw [val_main_v2_apply]
  unfold agg
  refine Finset.sum_congr rfl fun k _ => ?_
  rw [lidx2, ridx2, proj_w]

/-- The reference's A·(x·Wg) at (p, q). -/
theorem agg_wg (x0 : (⟨S10000x128, .f32⟩ : BufTy).Contents (Elt Ideal)) (x1 : (⟨S10000x10000, .f32⟩ : BufTy).Contents (Elt Ideal))
    (x3 : (⟨S128x128, .f32⟩ : BufTy).Contents (Elt Ideal)) (p : Fin 10000) (q : Fin 128) :
    val_main_v3 (F := Ideal) x0 x1 x3 (ix2 p q) = agg x1 x0 x3 p q := by
  rw [val_main_v3_apply]
  unfold agg
  refine Finset.sum_congr rfl fun k _ => ?_
  rw [lidx3, ridx3, proj_wg]

/-- 1 / (1 + e^(−z)), as the reference spells it, is the logistic function of z. -/
theorem logistic_spelt (z : EReal) :
    FloatOps.hostDivf (F := Ideal) (φ := .f32) (FloatOps.ofBits .f32 0x3F800000#32)
      (FloatOps.addf (FloatOps.ofBits .f32 0x3F800000#32) (FloatOps.hostUnary .exp (FloatOps.hostNegf z)))
    = Ideal.logistic z := by
  simp only [Ideal.ofBits_def, one_f32]
  rfl

/-- The reference's result is the specification. -/
theorem ref_eq (x0 : (⟨S10000x128, .f32⟩ : BufTy).Contents (Elt Ideal)) (x1 : (⟨S10000x10000, .f32⟩ : BufTy).Contents (Elt Ideal))
    (x2 x3 : (⟨S128x128, .f32⟩ : BufTy).Contents (Elt Ideal)) :
    val_main_v10 (F := Ideal) x0 x1 x2 x3 = gated x0 x1 x2 x3 := by
  funext i
  obtain ⟨p, q, rfl⟩ : ∃ (p : Fin 10000) (q : Fin 128), i = ix2 p q := ⟨i 0, i 1, eq_ix2 i⟩
  rw [gated_apply, val_main_v10_apply, val_main_v9_apply, val_main_v8_apply, val_main_cst_0_apply, val_main_v7_apply,
    val_main_v6_apply, val_main_cst_apply, val_main_v5_apply, val_main_v4_apply, agg_w, agg_wg, logistic_spelt]
  unfold gatedAt
  exact mul_comm _ _

end Cert.ReferenceIdeal.RefValue

end
-- ==== Proof.lean ====
/-
  The gated graph convolution: the kernel and its reference compute one function over the extended reals.

  Reference:   out = σ(A·(x·Wg)) ⊙ (A·(x·W)),   four matrix products and the logistic function spelt 1 / (1 + e^(−z)).
  Kernel:      one sweep of 25 steps over row blocks of A. Step 0 first stores the table T = [x·W | x·Wg] : [10000, 256]
               in a scratch buffer that no later step overwrites; step t then forms B_t·T for its row block B_t of A
               (rows 400t … 400t + 399) and writes  (B_t·T)[:, :128] ⊙ σ((B_t·T)[:, 128:])  to rows 400t … of the result.

  Why they agree, entry by entry: column q of B_t·T is Σ_k A[p, k]·(x·W)[k, q] and column 128 + q is
  Σ_k A[p, k]·(x·Wg)[k, q] — the concatenation only places the two projections side by side, no sum is regrouped —; the
  logistic function IS 1 / (1 + e^(−z)) on every extended real; the changes of float format are the identity on exact
  values; and the product of the two factors commutes. No law used needs a finite operand, so the precondition (finite
  inputs) is not opened.

  The modules: GatedSpec (the function), StepValues (what a step stores, as values), Sweep (the table survives the
  sweep), LibMatmulNN and Entries (the stored values at an entry), KernelResult (the kernel's result array is the
  function), ReferenceResult (so is the reference's). No operation of the kernel is rewritten in passing to the extended
  reals: its idealization is its own text read there.
-/
import proofs.«123847_g21887153340605_cont_8to1_463_4_alg».proof.Defs
import proofs.«123847_g21887153340605_cont_8to1_463_4_alg».proof.Proof.Gen.Kernel
import proofs.«123847_g21887153340605_cont_8to1_463_4_alg».proof.Proof.Gen.Kernel.Frame
import proofs.«123847_g21887153340605_cont_8to1_463_4_alg».proof.Proof.Gen.KernelIdeal
import proofs.«123847_g21887153340605_cont_8to1_463_4_alg».proof.Proof.Gen.KernelIdeal.Frame
import proofs.«123847_g21887153340605_cont_8to1_463_4_alg».proof.Proof.Gen.KernelIdeal.Value
import proofs.«123847_g21887153340605_cont_8to1_463_4_alg».proof.Proof.Gen.ReferenceIdeal
import proofs.«123847_g21887153340605_cont_8to1_463_4_alg».proof.Proof.Gen.ReferenceIdeal.Run
import proofs.«123847_g21887153340605_cont_8to1_463_4_alg».proof.Proof.Gen.ReferenceIdeal.Read
import proofs.«123847_g21887153340605_cont_8to1_463_4_alg».proof.Proof.Gen.Pre_finite_inputs
import proofs.«123847_g21887153340605_cont_8to1_463_4_alg».proof.Proof.KernelResult
import proofs.«123847_g21887153340605_cont_8to1_463_4_alg».proof.Proof.ReferenceResult

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the gated graph convolution of the (agreeing) arguments in their result arrays. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
